-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S16384x512 .f32) (main_arg1 : FVec F S2048x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  main_v8
-- ==== Kernel.lean ====
abbrev S16384x512 : Shape := ⟨2, ![16384, 512]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S16384x2048 : Shape := ⟨2, ![16384, 2048]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048x512, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S1x2048, .f32⟩
  | .hbm, ⟨7, _⟩ => ⟨S2048x512, .bf16⟩
  | .hbm, ⟨8, _⟩ => ⟨S16384x2048, .f32⟩
  | .local _ .vmem, ⟨0, _⟩ => ⟨S512x512, .f32⟩
  | .local _ .vmem, ⟨1, _⟩ => ⟨S512x512, .f32⟩
  | .local _ .vmem, ⟨2, _⟩ => ⟨S2048x512, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S2048x512_S2048_d1 : S2048x512.ReducesTo [1] S2048
  h_S_ : 0 < S_.numel
  bcast_S2048_S2048x1_0 : S2048.BroadcastsInDim S2048x1 (![0] : Fin 1 → Fin S2048x1.rank)
  transposes_S2048x1_S1x2048_1_0 : S2048x1.Transposes [1, 0] S1x2048
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S16384x2048.size a
  hwx0_3 : ∀ i : grid0.Coords, EltTy.bits .f32 = 32 ∨ (Rect.block (s := S16384x2048) S512x2048.size (cc0_transform_3 i) (hinb0_3 i)).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S_ : Shape := ⟨0, ![]⟩
abbrev S16384 : Shape := ⟨1, ![16384]⟩
abbrev S16384x1 : Shape := ⟨2, ![16384, 1]⟩
abbrev S2048 : Shape := ⟨1, ![2048]⟩
abbrev S16384x2048 : Shape := ⟨2, ![16384, 2048]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S2048x512, .f32⟩
  | .hbm, ⟨7, _⟩ => ⟨S_, .f32⟩
  | .hbm, ⟨8, _⟩ => ⟨S2048, .f32⟩
  | .hbm, ⟨9, _⟩ => ⟨S16384x2048, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S_, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S_, .f32⟩
  | .hbm, ⟨19, _⟩ => ⟨S16384x2048, .f32⟩
  | .hbm, ⟨20, _⟩ => ⟨S16384x2048, .f32⟩
  | .hbm, ⟨21, _⟩ => ⟨S16384x2048, .f32⟩
  | .hbm, ⟨22, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Spec.lean ====
/-
  The quantity both programs compute, written once over the extended reals.

  For a point x_n (row n of a [16384, 512] array) and a centre μ_c (row c of a [2048, 512] array) the score is
      −√( max( ‖x_n‖² + ‖μ_c‖² − 2·⟨x_n, μ_c⟩ , 0 ) ),
  the negated Euclidean distance, with the squared distance expanded into the two squared norms and the inner
  product, and clamped at zero before the root. The two squared norms and the inner product are sums over the
  512 features; on the extended reals a finite sum does not depend on the order or grouping of its terms, so
  neither program's order of summation appears here.
-/
import Idealize.ShloMosaic.PureOps.Ideal
import Idealize.ShloMosaic.PureOps.Ideal.Laws
import Idealize.ShloMosaic.Lib.ValueIdx

noncomputable section

namespace Cert.NearestMean

open Idealize.ShloMosaic Idealize.ShloMosaic.ValueIdx

/-- The score from a point's squared norm `xx`, a centre's squared norm `mm` and their inner product `xm`:
    −√(max(xx + mm − 2·xm, 0)). The factor two is kept as the float word both programs print (it denotes 2). -/
def scoreOf (xx mm xm : EReal) : EReal :=
  -(Ideal.sqrt (max (xx + mm - Ideal.ofBits .f32 0x40000000#32 * xm) 0))

/-- The squared norm of row `r` of an array with 512 columns: the sum of the squares of the row's entries. -/
def rowSq {R : Nat} (a : (⟨2, ![R, 512]⟩ : Shape).Idx → EReal) (r : Fin R) : EReal :=
  ∑ k : Fin 512, a (ix2 r k) * a (ix2 r k)

/-- The inner product of row `n` of `x` with row `c` of `mu`, both with 512 columns. -/
def rowDot {R R' : Nat} (x : (⟨2, ![R, 512]⟩ : Shape).Idx → EReal) (mu : (⟨2, ![R', 512]⟩ : Shape).Idx → EReal)
    (n : Fin R) (c : Fin R') : EReal :=
  ∑ k : Fin 512, x (ix2 n k) * mu (ix2 c k)

/-- The whole [16384, 2048] array of scores: entry (n, c) is the score of point n against centre c. -/
def negDist (x : (⟨2, ![16384, 512]⟩ : Shape).Idx → EReal) (mu : (⟨2, ![2048, 512]⟩ : Shape).Idx → EReal) :
    (⟨2, ![16384, 2048]⟩ : Shape).Idx → EReal :=
  fun i => scoreOf (rowSq x (i 0)) (rowSq mu (i 1)) (rowDot x mu (i 0) (i 1))

end Cert.NearestMean

end
-- ==== Proof.Body.lean ====
/-
  The kernel's body at one entry of its output block.

  The body holds a block of 512 points (a [512, 512] array `xb`), all 2048 centres (a [2048, 512] array `mb`) and the
  row of the centres' squared norms (a [1, 2048] array `mq`). It squares `xb` and sums each row (512 row values),
  views them as a column and repeats the column across the 2048 centres; repeats the row `mq` down the 512 points;
  multiplies `xb` by the transpose of `mb`, contracting the 512 features, into a zero accumulator; and then forms
  0 − √(max(a + b − 2·p, 0)) entry by entry. So entry (p, q) of what it stores is the score of Spec.lean from
  the squared norm of row p of `xb`, the q-th entry of `mq`, and the inner product of row p of `xb` with row q of `mb`
  (0 − y = −y on the extended reals; a change of float format is the identity there).
-/
import proofs.«180484_j86431921865191_2_alg».proof.Proof.Gen.KernelIdeal.Skeleton
import proofs.«180484_j86431921865191_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.NearestMean.Body

open Cert.KernelIdeal Cert.KernelIdeal.Gen Idealize.ShloMosaic Idealize.ShloMosaic.ValueIdx

/-- 512 row values viewed as a [512, 1] column and repeated across 2048 columns: entry (p, q) is the p-th value. -/
theorem column_apply {α : Type} (v : S512.Idx → α) (hc : S512.ShapeCasts S512x1) (hb : S512x1.Broadcasts S512x2048)
    (p : Fin 512) (q : Fin 2048) :
    broadcastTo S512x2048 (shapeCast S512x1 v hc) hb (ix2 p q) = v (ix1 p) := by
  refine (broadcastTo_apply _ hb (ix2 p q) (ix2 p (0 : Fin 1)) fun a => ?_).trans ?_
  · match a with
    | ⟨0, _⟩ => show p.val = if (512 : Nat) = 1 then 0 else p.val; rw [if_neg (by decide)]
    | ⟨1, _⟩ => show 0 = if (1 : Nat) = 1 then 0 else q.val; rw [if_pos rfl]
  · refine shapeCast_apply v hc (ix2 p (0 : Fin 1)) (ix1 p) ?_
    rw [Shape.rowMajor_val_two, Shape.rowMajor_val_one]
    show p.val = p.val * 1 + 0
    omega

/-- A [1, 2048] row repeated down 512 rows: entry (p, q) is the row's q-th value. -/
theorem row_apply {α : Type} (v : S1x2048.Idx → α) (hc : S1x2048.ShapeCasts S1x2048) (hb : S1x2048.Broadcasts S512x2048)
    (p : Fin 512) (q : Fin 2048) :
    broadcastTo S512x2048 (shapeCast S1x2048 v hc) hb (ix2 p q) = v (ix2 (0 : Fin 1) q) := by
  rw [shapeCast_self]
  exact broadcastTo_1b_ab_apply v hb p q

/-- The sum along each row of a [512, 512] array, at row p, is the sum over the 512 columns of the row's entries. -/
theorem rowSums_apply (v : FVec Ideal S512x512 .f32) (h : S512x512.Reduces [1] S512) (hφ : FKind.Formats .f32)
    (hacc : (0x00000000#32 : BitVec 32) = FKind.add.neutral .f32 hφ) (p : Fin 512) :
    multiReduction .add [1] S512 v 0x00000000#32 h hφ hacc (ix1 p) = ∑ k : Fin 512, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-! The matrix product of the block with the transposed centres: which entries of its operands entry (p, q) and
    feature k read. -/

theorem lhs_row (i : S512x2048.Idx) (c : dot_S512x512_S2048x512_S512x2048_1_1_0_0_n_n.contr.Idx) :
    (dot_S512x512_S2048x512_S512x2048_1_1_0_0_n_n.lhsIdx i c 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem lhs_feature (i : S512x2048.Idx) (c : dot_S512x512_S2048x512_S512x2048_1_1_0_0_n_n.contr.Idx) :
    (dot_S512x512_S2048x512_S512x2048_1_1_0_0_n_n.lhsIdx i c 1).val = (c ⟨0, by decide⟩).val :=
  dot_S512x512_S2048x512_S512x2048_1_1_0_0_n_n.lhsIdx_val_of_single rfl i c
theorem rhs_row (i : S512x2048.Idx) (c : dot_S512x512_S2048x512_S512x2048_1_1_0_0_n_n.contr.Idx) :
    (dot_S512x512_S2048x512_S512x2048_1_1_0_0_n_n.rhsIdx i c 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem rhs_feature (i : S512x2048.Idx) (c : dot_S512x512_S2048x512_S512x2048_1_1_0_0_n_n.contr.Idx) :
    (dot_S512x512_S2048x512_S512x2048_1_1_0_0_n_n.rhsIdx i c 1).val = (c ⟨0, by decide⟩).val :=
  dot_S512x512_S2048x512_S512x2048_1_1_0_0_n_n.rhsIdx_val_of_single rfl i c

/-- The product into a zero accumulator, at (p, q): the sum over the 512 features of row p of the left operand times
    row q of the right one. -/
theorem cross_apply (l : FVec Ideal S512x512 .bf16) (r : FVec Ideal S2048x512 .bf16) (p : Fin 512) (q : Fin 2048) :
    matmul dot_S512x512_S2048x512_S512x2048_1_1_0_0_n_n none l r (constant S512x2048 .f32 0x00000000#32) (ix2 p q)
      = ∑ k : Fin 512, l (ix2 p k) * r (ix2 q k) := by
  simp only [matmul]
  rw [Ideal.matmul_constant_zero_apply, ← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p q) ((contrEquiv1 dot_S512x512_S2048x512_S512x2048_1_1_0_0_n_n 512 rfl rfl).symm k) = ix2 p k :=
    funext fun a => Fin.ext (by
      match a with
      | ⟨0, _⟩ => exact lhs_row _ _
      | ⟨1, _⟩ => exact (lhs_feature _ _).trans hk)
  have er : dot_S512x512_S2048x512_S512x2048_1_1_0_0_n_n.rhsIdx (ix2 p q) ((contrEquiv1 dot_S512x512_S2048x512_S512x2048_1_1_0_0_n_n 512 rfl rfl).symm k) = ix2 q k :=
    funext fun a => Fin.ext (by
      match a with
      | ⟨0, _⟩ => exact rhs_row _ _
      | ⟨1, _⟩ => exact (rhs_feature _ _).trans hk)
  rw [el, er]

/-- Entry (p, q) of what the body stores is the score from the squared norm of row p of the point block, the q-th
    entry of the centres' norm row, and the inner product of row p of the point block with row q of the centres. -/
theorem payload_apply (xb : FVec Ideal S512x512 .f32) (mq : FVec Ideal S1x2048 .f32) (mb : FVec Ideal S2048x512 .bf16)
    (p : Fin 512) (q : Fin 2048) :
    k0_pay1 (F := Ideal) xb mq mb (ix2 p q) = scoreOf (rowSq xb p) (mq (ix2 (0 : Fin 1) q)) (rowDot xb mb p q) := by
  have hsq := rowSums_apply (mulf xb xb) reduces_S512x512_S512 (.inl rfl) rfl p
  have hcol := column_apply (multiReduction .add [1] S512 (mulf xb xb) 0x00000000#32 reduces_S512x512_S512 (.inl rfl) rfl)
    shapeCasts_S512_S512x1 broadcasts_S512x1_S512x2048 p q
  have hrow := row_apply mq shapeCasts_S1x2048_S1x2048 broadcasts_S1x2048_S512x2048 p q
  have hdot := cross_apply (truncf .bf16 xb bitsLt_bf16_f32) (shapeCast S2048x512 mb shapeCasts_S2048x512_S2048x512) p q
  unfold k0_pay1
  show Ideal.ofBits .f32 0x00000000#32 - Ideal.sqrt (max
      ((broadcastTo S512x2048 (shapeCast S512x1 (multiReduction .add [1] S512 (mulf xb xb) 0x00000000#32
            reduces_S512x512_S512 (.inl rfl) rfl) shapeCasts_S512_S512x1) broadcasts_S512x1_S512x2048 (ix2 p q)
          + broadcastTo S512x2048 (shapeCast S1x2048 mq shapeCasts_S1x2048_S1x2048) broadcasts_S1x2048_S512x2048 (ix2 p q))
        - Ideal.ofBits .f32 0x40000000#32
          * matmul dot_S512x512_S2048x512_S512x2048_1_1_0_0_n_n none (truncf .bf16 xb bitsLt_bf16_f32)
              (shapeCast S2048x512 mb shapeCasts_S2048x512_S2048x512) (constant S512x2048 .f32 0x00000000#32) (ix2 p q))
      (Ideal.ofBits .f32 0x00000000#32)) = _
  rw [hcol, hsq, hrow, hdot, shapeCast_self, Ideal.ofBits_zero_f32, zero_sub]
  rfl

end Cert.NearestMean.Body

end
-- ==== Proof.HostPrefix.lean ====
/-
  What the two host-computed operands of the kernel hold when the kernel starts.

  Before the kernel runs, the surrounding program squares the centres, sums each row starting from a zero (one
  squared norm per centre, 2048 of them), views that vector as a [2048, 1] column and transposes it into a [1, 2048]
  row; and it converts the centres to the narrower float format, which on the extended reals changes nothing. So the
  row's q-th entry is ‖μ_q‖² (0 + s = s), and the converted centres are the centres.
-/
import proofs.«180484_j86431921865191_2_alg».proof.Proof.Gen.KernelIdeal.Frame
import proofs.«180484_j86431921865191_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.NearestMean.HostPrefix

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The centres argument on core `c`, as an array of extended reals. -/
abbrev centres (c : Dev nD) : FVec Ideal S2048x512 .f32 := m ((c : Thread nD τ).loc main_arg1)

/-- The row of squared norms, as the host operations compute it from an array `a` of centres. -/
def normsRow (a : FVec Ideal S2048x512 .f32) : FVec Ideal S1x2048 .f32 :=
  transpose S1x2048 [1, 0] (broadcastInDim S2048x1 ![0] bcast_S2048_S2048x1_0
    (Host.reduceAdd (mulf a a) (constant (F := Ideal) S_ .f32 0x00000000#32) reducesTo_S2048x512_S2048_d1 h_S_))
    transposes_S2048x1_S1x2048_1_0

/-- Its q-th entry is the squared norm of centre q. -/
theorem normsRow_apply (a : FVec Ideal S2048x512 .f32) (q : Fin 2048) :
    normsRow a (ix2 (0 : Fin 1) q) = rowSq a q := by
  unfold normsRow
  refine (transpose_ix2_apply _ transposes_S2048x1_S1x2048_1_0 (0 : Fin 1) q).trans ?_
  refine (broadcastInDim_apply _ bcast_S2048_S2048x1_0 _ (ix2 q (0 : Fin 1)) (ix1 q) fun b => ?_).trans ?_
  · match b with
    | ⟨0, _⟩ => show q.val = if (2048 : Nat) = 1 then 0 else q.val; rw [if_neg (by decide)]
  simp only [Host.reduceAdd, Ideal.hostReduceAdd_def]
  rw [Ideal.hostReduceAdd_single reducesTo_S2048x512_S2048_d1 (by decide)]
  show Ideal.ofBits .f32 0x00000000#32 + _ = _
  rw [Ideal.ofBits_zero_f32, zero_add]
  unfold rowSq
  refine Finset.sum_congr rfl fun k _ => ?_
  exact congrArg (mulf a a) (funext fun b => Fin.ext (by match b with | ⟨0, _⟩ => rfl | ⟨1, _⟩ => rfl))

/-- When the kernel starts, its norm-row operand holds the row of squared norms of the centres argument. -/
theorem normsOperand_eq (c : Dev nD) : (V m c main_v3 : FVec Ideal S1x2048 .f32) = normsRow (centres m c) := by
  dsimp only [V, hostOps0]
  after_results
  rfl

/-- When the kernel starts, its centres operand holds the centres argument (the format change is the identity). -/
theorem centresOperand_eq (c : Dev nD) : (V m c main_v4 : FVec Ideal S2048x512 .bf16) = centres m c := by
  dsimp only [V, hostOps0]
  after_results
  rfl

end Cert.NearestMean.HostPrefix

end
-- ==== Proof.Blocks.lean ====
/-
  From the kernel's blocks to the whole score array.

  The kernel runs at 32 grid points. At point t it holds rows 512·t … 512·t + 511 of the points (all 512 features),
  all of the centres, and the whole row of the centres' squared norms, and it writes back rows 512·t … 512·t + 511 of
  the [16384, 2048] result (all 2048 columns). By Body.lean, entry (p, q) of what it writes is the score from the
  squared norm of row p of its point block, the q-th squared norm, and the inner product of that row with centre q;
  row p of the point block is row 512·t + p of the points argument, so this is entry (512·t + p, q) of the score
  array of Spec.lean. The 32 row blocks tile the result (row r lies in block r / 512), so after the run the result
  array is the score array.
-/
import proofs.«180484_j86431921865191_2_alg».proof.Proof.Gen.KernelIdeal.Value
import proofs.«180484_j86431921865191_2_alg».proof.Proof.Body
import proofs.«180484_j86431921865191_2_alg».proof.Proof.HostPrefix
import Idealize.ShloMosaic.Lib.Pipeline.Value
import Idealize.ShloMosaic.Lib.ValueIdx

noncomputable section

namespace Cert.NearestMean.Blocks

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx
open Cert.NearestMean.HostPrefix (centres)

variable (m : (ℓ : Loc nD τ sig) → Buf (Elt Ideal) ℓ) (ρ : Dev nD → PrngReg)

/-- The points argument on core `c`, as an array of extended reals. -/
abbrev points (c : Dev nD) : FVec Ideal S16384x512 .f32 := m ((c : Thread nD τ).loc main_arg0)

/-- The score array of the two arguments on core `c`. -/
abbrev scores (c : Dev nD) : FVec Ideal S16384x2048 .f32 := negDist (points m c) (centres m c)

/-! ## One entry, over plain arrays -/

/-- If a [512, 512] array `xb` is rows 512·b … 512·b + 511 of `x`, `mb` is `mu`, and `mq` holds the squared norms of the
    rows of `mu`, then entry j of what the body computes from them is entry i of the score array of `x` and `mu`,
    where i is j moved down by 512·b rows. -/
theorem entry_eq (xb : FVec Ideal S512x512 .f32) (mq : FVec Ideal S1x2048 .f32) (mb : FVec Ideal S2048x512 .bf16)
    (x : FVec Ideal S16384x512 .f32) (mu : FVec Ideal S2048x512 .f32)
    (j : S512x2048.Idx) (i : S16384x2048.Idx) (b : Nat)
    (hi0 : (i 0).val = b * 512 + (j 0).val) (hi1 : (i 1).val = (j 1).val)
    (hx : ∀ (p k : Fin 512) (n : Fin 16384), n.val = b * 512 + p.val → xb (ix2 p k) = x (ix2 n k))
    (hmb : ∀ (q : Fin 2048) (k : Fin 512), mb (ix2 q k) = mu (ix2 q k))
    (hmq : ∀ q : Fin 2048, mq (ix2 (0 : Fin 1) q) = rowSq mu q) :
    k0_pay1 (F := Ideal) xb mq mb j = negDist x mu i := by
  obtain ⟨p, q, rfl⟩ : ∃ (p : Fin 512) (q : Fin 2048), j = ix2 p q := ⟨j 0, j 1, eq_ix2 j⟩
  obtain ⟨n, q', rfl⟩ : ∃ (n : Fin 16384) (q' : Fin 2048), i = ix2 n q' := ⟨i 0, i 1, eq_ix2 i⟩
  have hn : n.val = b * 512 + p.val := hi0
  obtain rfl : q' = q := Fin.ext hi1
  have h1 : rowSq xb p = rowSq x n := by
    unfold rowSq
    exact Finset.sum_congr rfl fun k _ => by rw [hx p k n hn]
  have h2 : rowDot xb mb p q' = rowDot x mu n q' := by
    unfold rowDot
    exact Finset.sum_congr rfl fun k _ => by rw [hx p k n hn, hmb q' k]
  rw [Body.payload_apply, h1, h2, hmq q']
  rfl

/-! ## The blocks at a grid point -/

theorem zeroOffsets : (![0, 0] : Fin 2 → Nat) = fun _ => 0 := funext fun a => by fin_cases a <;> rfl

/-- Which block of its array each operand holds at grid point t: the points and the result move by one block of rows
    per point; the centres and their norms are one whole block throughout. -/
theorem blockIndex : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry (p, k) of the point block at grid point t is entry (512·t + p, k) of the points argument. -/
theorem pointBlock_apply (c : Dev nD) (t : Fin cfg0.N) (p k : Fin 512) (n : Fin 16384) (hn : n.val = t.val * 512 + p.val) :
    (iblk m c 0 t : FVec Ideal S512x512 .f32) (ix2 p k) = points m c (ix2 n k) := by
  obtain ⟨e00, e01, -⟩ := blockIndex t
  unfold iblk
  rw [View.read_apply]
  show V m c main_arg0 _ = _
  rw [V_main_arg0]
  refine congrArg (points m c) (funext fun a => Fin.ext ?_)
  match a with
  | ⟨0, _⟩ => show win0_0.index t (0 : Fin 2) * 512 + 1 * p.val = n.val; omega
  | ⟨1, _⟩ => show win0_0.index t (1 : Fin 2) * 512 + 1 * k.val = k.val; omega

/-- The centres block at any grid point is the centres argument. -/
theorem centresBlock_apply (c : Dev nD) (t : Fin cfg0.N) (q : Fin 2048) (k : Fin 512) :
    (iblk m c 1 t : FVec Ideal S2048x512 .bf16) (ix2 q k) = centres m c (ix2 q k) := by
  obtain ⟨-, -, e10, e11, -⟩ := blockIndex t
  unfold iblk
  rw [View.read_apply]
  show (V m c main_v4 : FVec Ideal S2048x512 .bf16) _ = _
  rw [HostPrefix.centresOperand_eq]
  refine congrArg (centres m c) (funext fun a => Fin.ext ?_)
  match a with
  | ⟨0, _⟩ => show win0_1.index t (0 : Fin 2) * 2048 + 1 * q.val = q.val; omega
  | ⟨1, _⟩ => show win0_1.index t (1 : Fin 2) * 512 + 1 * k.val = k.val; omega

/-- The q-th entry of the norm row at any grid point is the squared norm of centre q of the centres argument. -/
theorem normsBlock_apply (c : Dev nD) (t : Fin cfg0.N) (q : Fin 2048) :
    (iblk m c 2 t : FVec Ideal S1x2048 .f32) (ix2 (0 : Fin 1) q) = rowSq (centres m c) q := by
  obtain ⟨-, -, -, -, e20, e21, -⟩ := blockIndex t
  unfold iblk
  rw [View.read_apply]
  show (V m c main_v3 : FVec Ideal S1x2048 .f32) _ = _
  rw [HostPrefix.normsOperand_eq]
  refine Eq.trans (congrArg (HostPrefix.normsRow (centres m c)) (funext fun a => Fin.ext ?_))
    (HostPrefix.normsRow_apply (centres m c) q)
  match a with
  | ⟨0, _⟩ => show win0_2.index t (0 : Fin 2) * 1 + 1 * 0 = 0; omega
  | ⟨1, _⟩ => show win0_2.index t (1 : Fin 2) * 2048 + 1 * q.val = q.val; omega

/-! ## What a grid point writes back, and the whole array -/

/-- What grid point t writes back is block t of the score array. -/
theorem flushed_eq (c : Dev nD) (t : Fin cfg0.N) :
    (dats m 0 c).flushed 3 t = ((cfg0.win 3).blk t).view.read (Elt Ideal) (scores m c) := by
  rw [flushed3]
  unfold out0_3
  rw [View.canon_unit_zero zeroOffsets]
  simp only [View.ld_unit_zero (S := S512x512) zeroOffsets, View.ld_unit_zero (S := S1x2048) zeroOffsets,
    View.ld_unit_zero (S := S2048x512) zeroOffsets]
  obtain ⟨-, -, -, -, -, -, e30, e31⟩ := blockIndex t
  funext j
  show k0_pay1 (F := Ideal) (iblk m c 0 t) (iblk m c 2 t) (iblk m c 1 t) j = scores m c (((cfg0.win 3).blk t).view.emb j)
  refine entry_eq (iblk m c 0 t) (iblk m c 2 t) (iblk m c 1 t) (points m c) (centres m c) j
    (((cfg0.win 3).blk t).view.emb j) t.val ?_ ?_ (fun p k n hn => pointBlock_apply m c t p k n hn)
    (fun q k => centresBlock_apply m c t q k) (fun q => normsBlock_apply m c t q)
  · show win0_3.index t (0 : Fin 2) * 512 + 1 * (j 0).val = t.val * 512 + (j 0).val; omega
  · show win0_3.index t (1 : Fin 2) * 2048 + 1 * (j 1).val = (j 1).val; omega

/-- An index of the result lies in grid point t's block iff each coordinate lies in the block's range on its axis. -/
theorem mem_block (t : Fin cfg0.N) (i : S16384x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v5).slice (win0_3.rect t)).set ↔ _
  rw [View.set_slice_whole, Rect.mem_set_unit]
  exact Iff.rfl

/-- Every index of the result lies in the block of the grid point numbered by its row divided by 512. -/
theorem covered (i : S16384x2048.Idx) :
    ∃ t : Fin cfg0.N, (cfg0.win 3).flush t = true ∧ i ∈ ((cfg0.win 3).blk t).view.set := by
  have hN : cfg0.N = 32 := N_0
  have h0 : (i 0).val < 16384 := (i 0).isLt
  have h1 : (i 1).val < 2048 := (i 1).isLt
  have ht : (i 0).val / 512 < cfg0.N := by rw [hN]; omega
  obtain ⟨-, -, -, -, -, -, e30, e31⟩ := blockIndex ⟨(i 0).val / 512, ht⟩
  have e30' : win0_3.index ⟨(i 0).val / 512, ht⟩ (0 : Fin 2) = (i 0).val / 512 := e30
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30']; omega
  | ⟨1, _⟩ =>
    show win0_3.index ⟨(i 0).val / 512, ht⟩ (1 : Fin 2) * 2048 ≤ (i 1).val
      ∧ (i 1).val < win0_3.index ⟨(i 0).val / 512, ht⟩ (1 : Fin 2) * 2048 + 2048
    rw [e31]; omega

/-- After the run the result array is the score array of the two arguments. -/
theorem final (c : Dev nD) : (dats m 0 c).arrAt 3 cfg0.N = scores m c :=
  (dats m 0 c).arrAt_eq_of_cover 3 (scores m c) (fun t _ => flushed_eq m c t) covered

/-- The kernel's run: every weakly fair execution ends with the result at the score array and the arguments unchanged. -/
theorem run : θ_run defs (onTc (τ := τ) (main (F := Ideal))) ⟨m, fun _ => 0, ρ⟩ fun r => ∀ c : Dev nD,
      r.2.mem ((c : Thread nD τ).loc main_v5) = scores m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.NearestMean.Blocks

end
-- ==== Proof.ReferenceScore.lean ====
/-
  The reference computes the score array of Spec.lean.

  Its program forms ‖x_n‖² and ‖μ_c‖² as row sums of the squared arrays (each started from a zero), the inner
  products as one matrix product x·μᵀ contracted over the 512 features, broadcasts the two norm vectors along the
  other axis, and then applies  a + b − 2·p,  max(·, 0),  √  and negation entry by entry. Read at an index (n, c),
  each stage depends on one entry of its operands, so the last stage at (n, c) is the score of Spec.lean once the
  starting zeros are dropped (0 + s = s).
-/
import proofs.«180484_j86431921865191_2_alg».proof.Proof.Gen.ReferenceIdeal.Read
import proofs.«180484_j86431921865191_2_alg».proof.Proof.Spec

noncomputable section

namespace Cert.NearestMean.Reference

open Cert.ReferenceIdeal Cert.ReferenceIdeal.Read Idealize.ShloMosaic Idealize.ShloMosaic.ValueIdx

/-- The reference's last stage, as a function of the two argument arrays, is the score array. -/
theorem lastStage_eq (x : (⟨S16384x512, .f32⟩ : BufTy).Contents (Elt Ideal))
    (mu : (⟨S2048x512, .f32⟩ : BufTy).Contents (Elt Ideal)) :
    val_main_v16 (F := Ideal) x mu = negDist x mu := by
  funext i
  -- the row of x that entry i reads, through the two broadcasts of the norm vector
  have ex : ∀ k : Fin 512, idx_main_v1 (idx_main_v2 (idx_main_v7 i)) k = ix2 (i 0) k := fun k =>
    funext fun a => Fin.ext (by match a with | ⟨0, _⟩ => rfl | ⟨1, _⟩ => rfl)
  -- the row of μ that entry i reads, likewise
  have em : ∀ k : Fin 512, idx_main_v4 (idx_main_v6 (idx_main_v8 i)) k = ix2 (i 1) k := fun k =>
    funext fun a => Fin.ext (by match a with | ⟨0, _⟩ => rfl | ⟨1, _⟩ => rfl)
  -- the two operands of the matrix product at entry i and feature k
  have el : ∀ k : Fin 512, lidx_main_v5 i k = ix2 (i 0) k := fun k =>
    funext fun a => Fin.ext (by match a with | ⟨0, _⟩ => rfl | ⟨1, _⟩ => rfl)
  have er : ∀ k : Fin 512, ridx_main_v5 i k = ix2 (i 1) k := fun k =>
    funext fun a => Fin.ext (by match a with | ⟨0, _⟩ => rfl | ⟨1, _⟩ => rfl)
  rw [val_main_v16_apply, val_main_v15_apply, val_main_v14_apply, val_main_v12_apply, val_main_v13_apply,
    val_main_cst_2_apply, val_main_v9_apply, val_main_v11_apply, val_main_v10_apply, val_main_cst_1_apply,
    val_main_v5_apply, val_main_v7_apply, val_main_v2_apply, val_main_v1_apply, val_main_v8_apply,
    val_main_v6_apply, val_main_v4_apply, val_main_cst_apply, val_main_cst_0_apply]
  simp only [val_main_v0_apply, val_main_v3_apply, ex, em, el, er, Ideal.hostNegf_def, Ideal.negf_def,
    Ideal.hostUnary_sqrt_def, Ideal.maximumf_def, Ideal.subf_def, Ideal.addf_def, Ideal.mulf_def, Ideal.ofBits_def,
    Ideal.ofBits_zero_f32, zero_add]
  rfl

end Cert.NearestMean.Reference

end
-- ==== Proof.lean ====
/-
  Nearest-mean scores: the kernel against its reference, over the extended reals.

  Both programs take 16384 points and 2048 centres with 512 features each and return, for every pair, the negated
  Euclidean distance in the expanded form  −√(max(‖x‖² + ‖μ‖² − 2·⟨x, μ⟩, 0))  (Proof/Spec.lean).
  The reference forms the two norm vectors by row sums and the inner products by one matrix product, then works entry by
  entry (Proof/ReferenceScore.lean). The kernel receives the centres' norms precomputed as a row and the centres in a
  narrower float format (Proof/HostPrefix.lean), and at each of 32 grid points takes a block of 512 points, sums the
  squares of its rows, multiplies it with the transposed centres and combines the three entry by entry
  (Proof/Body.lean); its 32 row blocks tile the result (Proof/Blocks.lean).
  On the extended reals a change of float format is the identity, a sum of finitely many terms does not depend on
  their order, 0 + s = s and 0 − y = −y; nothing else is used, so the two results agree for all inputs, finite or not.
  The kernel's idealized program is its own text read over the extended reals (no rewrite was applied), so there is
  nothing to show for that conjunct.
-/
import proofs.«180484_j86431921865191_2_alg».proof.Defs
import proofs.«180484_j86431921865191_2_alg».proof.Proof.Gen.Kernel
import proofs.«180484_j86431921865191_2_alg».proof.Proof.Gen.Kernel.Skeleton
import proofs.«180484_j86431921865191_2_alg».proof.Proof.Gen.Kernel.Launch
import proofs.«180484_j86431921865191_2_alg».proof.Proof.Gen.Kernel.Points
import proofs.«180484_j86431921865191_2_alg».proof.Proof.Gen.Kernel.Frame
import proofs.«180484_j86431921865191_2_alg».proof.Proof.Gen.KernelIdeal
import proofs.«180484_j86431921865191_2_alg».proof.Proof.Gen.KernelIdeal.Skeleton
import proofs.«180484_j86431921865191_2_alg».proof.Proof.Gen.KernelIdeal.Launch
import proofs.«180484_j86431921865191_2_alg».proof.Proof.Gen.KernelIdeal.Points
import proofs.«180484_j86431921865191_2_alg».proof.Proof.Gen.KernelIdeal.Frame
import proofs.«180484_j86431921865191_2_alg».proof.Proof.Gen.ReferenceIdeal
import proofs.«180484_j86431921865191_2_alg».proof.Proof.Gen.Pre_finite_inputs
import proofs.«180484_j86431921865191_2_alg».proof.Proof.Gen.KernelIdeal.Value
import proofs.«180484_j86431921865191_2_alg».proof.Proof.Gen.ReferenceIdeal.Run
import proofs.«180484_j86431921865191_2_alg».proof.Proof.Gen.ReferenceIdeal.Read
import proofs.«180484_j86431921865191_2_alg».proof.Proof.Blocks
import proofs.«180484_j86431921865191_2_alg».proof.Proof.ReferenceScore
import Idealize.ShloMosaic.Adequacy
import Idealize.ShloMosaic.Init

noncomputable section

namespace Cert.Proof

open Idealize.ShloMosaic Idealize.SL.Sem

/-- The word-level kernel runs to the end without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, the kernel ends with its result at the score array of its arguments (Blocks.lean), and the
    reference with its result at its last stage, which is the score array of its arguments (ReferenceScore.lean): the
    same array. -/
theorem algebraic : Cert.algebraic_KernelIdeal_ReferenceIdeal := by
  intro m ρ m' ρ' _ hagree
  refine ⟨fun c => Cert.NearestMean.Blocks.scores m c, Cert.NearestMean.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v16_eq _ _).trans (Cert.NearestMean.Reference.lastStage_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
